-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v59)) (v4 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v59) = v3 c
          ∧ r.2.mem ((c.tc : Thread Cert.KernelIdeal.nD Cert.KernelIdeal.τ).loc Cert.KernelIdeal.main_v60) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S10000x64 : Shape := ⟨2, ![10000, 64]⟩
abbrev S20000x1 : Shape := ⟨2, ![20000, 1]⟩
abbrev S10000 : Shape := ⟨1, ![10000]⟩
abbrev S4096 : Shape := ⟨1, ![4096]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S20000x1 : S_.BroadcastsInDim S20000x1 (![] : Fin 0 → Fin S20000x1.rank)
  reducesTo_S20000x1_S_d0_1 : S20000x1.ReducesTo [0, 1] S_
  bcast_S_S10000 : S_.BroadcastsInDim S10000 (![] : Fin 0 → Fin S10000.rank)
  reducesTo_S10000_S_d0 : S10000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg5 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v18 main_v21
  main_v22

def fn {F : FTy → Type} [FloatOps F] (main_arg0 : FVec F S20000x64 .f32) (main_arg1 : FVec F S10000x64 .f32) (main_arg2 : FVec F S20000x1 .f32) (main_arg3 : FVec F S10000 .f32) (main_arg4 : IVec S4096 32) (main_arg5 : IVec S4096 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S20000x1 .f32 := Host.absf main_arg2
  let main_cst_2 : FVec F S_ .f32 := constant S_ .f32 0x7F800000#32
  let main_v10 : FVec F S20000x1 .f32 := broadcastInDim S20000x1 ![] bcast_S_S20000x1 main_cst_2
  let main_v11 : IVec S20000x1 1 := cmpf .olt main_v9 main_v10
  let main_c_3 : IVec S_ 1 := constantI S_ 1 1#1
  let main_v12 : IVec S_ 1 := (fun x v => Host.reduce IntOp.andi x v reducesTo_S20000x1_S_d0_1 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg5 main_v13 main_v16
-- ==== Kernel.lean ====
abbrev S20000x64 : Shape := ⟨2, ![20000, 64]⟩
abbrev S10000x64 : Shape := ⟨2, ![10000, 64]⟩
abbrev S20000x1 : Shape := ⟨2, ![20000, 1]⟩
abbrev S10000 : Shape := ⟨1, ![10000]⟩
abbrev S4096 : Shape := ⟨1, ![4096]⟩
abbrev S_ : Shape := ⟨0, ![]⟩
abbrev S20000x10240 : Shape := ⟨2, ![20000, 10240]⟩
abbrev S4096x1 : Shape := ⟨2, ![4096, 1]⟩
abbrev S4096x2 : Shape := ⟨2, ![4096, 2]⟩
abbrev S4096x64 : Shape := ⟨2, ![4096, 64]⟩
abbrev S10240x64 : Shape := ⟨2, ![10240, 64]⟩
abbrev S10240 : Shape := ⟨1, ![10240]⟩
abbrev S1x10240 : Shape := ⟨2, ![1, 10240]⟩
abbrev S1000x64 : Shape := ⟨2, ![1000, 64]⟩
abbrev S1024x64 : Shape := ⟨2, ![1024, 64]⟩
abbrev S1000x1 : Shape := ⟨2, ![1000, 1]⟩
abbrev S1x1024 : Shape := ⟨2, ![1, 1024]⟩
abbrev S1000x1024 : Shape := ⟨2, ![1000, 1024]⟩
abbrev S20000x10000 : Shape := ⟨2, ![20000, 10000]⟩

abbrev nBuf : Space → Nat
  | .hbm => 93
  | .vmem => 12
  | .smem => 0
  | _ => 0

abbrev bufTy : (tb : Table) → Fin (tcTables nBuf tb) → BufTy
  | .hbm, ⟨0, _⟩ => ⟨S20000x64, .f32⟩
  | .hbm, ⟨1, _⟩ => ⟨S10000x64, .f32⟩
  | .hbm, ⟨2, _⟩ => ⟨S20000x1, .f32⟩
  | .hbm, ⟨3, _⟩ => ⟨S10000, .f32⟩
  | .hbm, ⟨4, _⟩ => ⟨S4096, .i32⟩
  | .hbm, ⟨5, _⟩ => ⟨S4096, .i32⟩
  | .hbm, ⟨6, _⟩ => ⟨S_, .f32⟩
  | .hbm, ⟨7, _⟩ => ⟨S20000x10240, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x1, .i32⟩
  | .hbm, ⟨24, _⟩ => ⟨S4096x2, .i32⟩
  | .hbm, ⟨25, _⟩ => ⟨S_, .f32⟩
  | .hbm, ⟨26, _⟩ => ⟨S4096, .f32⟩
  | .hbm, ⟨27, _⟩ => ⟨S20000x10240, .f32⟩
  | .hbm, ⟨28, _⟩ => ⟨S_, .f32⟩
  | .hbm, ⟨29, _⟩ => ⟨S20000x64, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S_, .f32⟩
  | .hbm, ⟨39, _⟩ => ⟨S4096x64, .f32⟩
  | .hbm, ⟨40, _⟩ => ⟨S20000x64, .f32⟩
  | .hbm, ⟨41, _⟩ => ⟨S_, .f32⟩
  | .hbm, ⟨42, _⟩ => ⟨S10000x64, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S_, .f32⟩
  | .hbm, ⟨52, _⟩ => ⟨S4096x64, .f32⟩
  | .hbm, ⟨53, _⟩ => ⟨S10000x64, .f32⟩
  | .hbm, ⟨54, _⟩ => ⟨S_, .f32⟩
  | .hbm, ⟨55, _⟩ => ⟨S20000x1, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S_, .f32⟩
  | .hbm, ⟨65, _⟩ => ⟨S4096x1, .f32⟩
  | .hbm, ⟨66, _⟩ => ⟨S20000x1, .f32⟩
  | .hbm, ⟨67, _⟩ => ⟨S_, .f32⟩
  | .hbm, ⟨68, _⟩ => ⟨S10000, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S_, .f32⟩
  | .hbm, ⟨78, _⟩ => ⟨S4096, .f32⟩
  | .hbm, ⟨79, _⟩ => ⟨S10000, .f32⟩
  | .hbm, ⟨80, _⟩ => ⟨S_, .i32⟩
  | .hbm, ⟨81, _⟩ => ⟨S_, .f32⟩
  | .hbm, ⟨82, _⟩ => ⟨S10240x64, .f32⟩
  | .hbm, ⟨83, _⟩ => ⟨S_, .i32⟩
  | .hbm, ⟨84, _⟩ => ⟨S_, .f32⟩
  | .hbm, ⟨85, _⟩ => ⟨S10240, .f32⟩
  | .hbm, ⟨86, _⟩ => ⟨S1x10240, .f32⟩
  | .hbm, ⟨87, _⟩ => ⟨S20000x10240, .f32⟩
  | .hbm, ⟨88, _⟩ => ⟨S20000x10000, .f32⟩
  | .hbm, ⟨89, _⟩ => ⟨S20000x64, .f32⟩
  | .hbm, ⟨90, _⟩ => ⟨S20000x1, .f32⟩
  | .hbm, ⟨91, _⟩ => ⟨S10000x64, .f32⟩
  | .hbm, ⟨92, _⟩ => ⟨S10000, .f32⟩
  | .local _ .vmem, ⟨0, _⟩ => ⟨S1000x64, .f32⟩
  | .local _ .vmem, ⟨1, _⟩ => ⟨S1000x64, .f32⟩
  | .local _ .vmem, ⟨2, _⟩ => ⟨S1024x64, .f32⟩
  | .local _ .vmem, ⟨3, _⟩ => ⟨S1024x64, .f32⟩
  | .local _ .vmem, ⟨4, _⟩ => ⟨S1000x1, .f32⟩
  | .local _ .vmem, ⟨5, _⟩ => ⟨S1000x1, .f32⟩
  | .local _ .vmem, ⟨6, _⟩ => ⟨S1x1024, .f32⟩
  | .local _ .vmem, ⟨7, _⟩ => ⟨S1x1024, .f32⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_c_13 : Ref sig .tc := ⟨.hbm, 56, rfl⟩
abbrev main_v35 : Ref sig .tc := ⟨.hbm, 57, rfl⟩
abbrev main_v36 : Ref sig .tc := ⟨.hbm, 58, rfl⟩
abbrev main_c_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_15 : Ref sig .tc := ⟨.hbm, 64, rfl⟩
abbrev main_v41 : Ref sig .tc := ⟨.hbm, 65, rfl⟩
abbrev main_v42 : Ref sig .tc := ⟨.hbm, 66, rfl⟩
abbrev main_cst_16 : Ref sig .tc := ⟨.hbm, 67, rfl⟩
abbrev main_v43 : Ref sig .tc := ⟨.hbm, 68, rfl⟩
abbrev main_c_17 : Ref sig .tc := ⟨.hbm, 69, rfl⟩
abbrev main_v44 : Ref sig .tc := ⟨.hbm, 70, rfl⟩
abbrev main_v45 : Ref sig .tc := ⟨.hbm, 71, rfl⟩
abbrev main_c_18 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_c_20 : Ref sig .tc := ⟨.hbm, 80, rfl⟩
abbrev main_call0_v0 : Ref sig .tc := ⟨.hbm, 81, rfl⟩
abbrev main_v52 : Ref sig .tc := ⟨.hbm, 82, rfl⟩
abbrev main_c_21 : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![20, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1000x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1000x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S20000x10240 : S_.BroadcastsInDim S20000x10240 (![] : Fin 0 → Fin S20000x10240.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S20000x64 : S_.BroadcastsInDim S20000x64 (![] : Fin 0 → Fin S20000x64.rank)
  bcast_S_S4096x64 : S_.BroadcastsInDim S4096x64 (![] : Fin 0 → Fin S4096x64.rank)
  bcast_S_S10000x64 : S_.BroadcastsInDim S10000x64 (![] : Fin 0 → Fin S10000x64.rank)
  bcast_S_S20000x1 : S_.BroadcastsInDim S20000x1 (![] : Fin 0 → Fin S20000x1.rank)
  bcast_S_S4096x1 : S_.BroadcastsInDim S4096x1 (![] : Fin 0 → Fin S4096x1.rank)
  bcast_S_S10000 : S_.BroadcastsInDim S10000 (![] : Fin 0 → Fin S10000.rank)
  pads_S10000x64_S10240x64_02400_000 : S10000x64.Pads (![0, 0] : Fin 2 → Nat) ![240, 0] ![0, 0] S10240x64
  h_S_ : 0 < S_.numel
  pads_S10000_S10240_02400 : S10000.Pads (![0] : Fin 1 → Nat) ![240] ![0] S10240
  shapeCasts_S10240_S1x10240 : S10240.ShapeCasts S1x10240
  inb_S1000x64_S1000x64_0_0 : ∀ a, (![0, 0] : Fin 2 → Nat) a + S1000x64.size a ≤ S1000x64.size a
  h_S1000x64 : 0 < S1000x64.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1000x1_S1000x1_0_0 : ∀ a, (![0, 0] : Fin 2 → Nat) a + S1000x1.size a ≤ S1000x1.size a
  h_S1000x1 : 0 < S1000x1.numel
  broadcasts_S1000x1_S1000x1024 : S1000x1.Broadcasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  slices_S20000x10240_S20000x10000_0_0 : S20000x10240.Slices ![0, 0] S20000x10000
  scatter_S20000x10240_S4096x2_S4096_n_01_01_1_wf : ScatterDims.WF S20000x10240 S4096x2 S4096 [] [0, 1] [0, 1] 1
  scatter_S20000x64_S4096x1_S4096x64_1_0_0_1_wf : ScatterDims.WF S20000x64 S4096x1 S4096x64 [1] [0] [0] 1
  scatter_S10000x64_S4096x1_S4096x64_1_0_0_1_wf : ScatterDims.WF S10000x64 S4096x1 S4096x64 [1] [0] [0] 1
  scatter_S20000x1_S4096x1_S4096x1_1_0_0_1_wf : ScatterDims.WF S20000x1 S4096x1 S4096x1 [1] [0] [0] 1
  scatter_S10000_S4096x1_S4096_n_0_0_1_wf : ScatterDims.WF S10000 S4096x1 S4096 [] [0] [0] 1
  dot_S1000x64_S1024x64_S1000x1024_1_1_0_0_n_n_wf : DotDims.WF S1000x64 S1024x64 S1000x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S20000x64.size a
  hwx0_0 : ∀ i : grid0.Coords, EltTy.bits .f32 = 32 ∨ (Rect.block (s := S20000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S10240x64.size a
  hwx0_1 : ∀ i : grid0.Coords, EltTy.bits .f32 = 32 ∨ (Rect.block (s := S10240x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S20000x1.size a
  hwx0_2 : ∀ i : grid0.Coords, EltTy.bits .f32 = 32 ∨ (Rect.block (s := S20000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x10240.size a
  hwx0_3 : ∀ i : grid0.Coords, EltTy.bits .f32 = 32 ∨ (Rect.block (s := S1x10240) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1024.size a ≤ S20000x10240.size a
  hwx0_4 : ∀ i : grid0.Coords, EltTy.bits .f32 = 32 ∨ (Rect.block (s := S20000x10240) S1000x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1024.size a ≤ S20000x10240.size a
  hwx0_5 : ∀ i : grid0.Coords, EltTy.bits .f32 = 32 ∨ (Rect.block (s := S20000x10240) S1000x1024.size (cc0_transform_5 i) (hinb0_5 i)).WholeWords (EltTy.packing .f32)

variable [Facts₀]

def scatter_S20000x10240_S4096x2_S4096_n_01_01_1 : ScatterDims S20000x10240 S4096x2 S4096 where
  updateWindowDims := []
  insertedWindowDims := [0, 1]
  scatterDimsToOperandDims := [0, 1]
  indexVectorDim := 1
  wf := scatter_S20000x10240_S4096x2_S4096_n_01_01_1_wf
def scatter_S20000x64_S4096x1_S4096x64_1_0_0_1 : ScatterDims S20000x64 S4096x1 S4096x64 where
  updateWindowDims := [1]
  insertedWindowDims := [0]
  scatterDimsToOperandDims := [0]
  indexVectorDim := 1
  wf := scatter_S20000x64_S4096x1_S4096x64_1_0_0_1_wf
def scatter_S10000x64_S4096x1_S4096x64_1_0_0_1 : ScatterDims S10000x64 S4096x1 S4096x64 where
  updateWindowDims := [1]
  insertedWindowDims := [0]
  scatterDimsToOperandDims := [0]
  indexVectorDim := 1
  wf := scatter_S10000x64_S4096x1_S4096x64_1_0_0_1_wf
def scatter_S20000x1_S4096x1_S4096x1_1_0_0_1 : ScatterDims S20000x1 S4096x1 S4096x1 where
  updateWindowDims := [1]
  insertedWindowDims := [0]
  scatterDimsToOperandDims := [0]
  indexVectorDim := 1
  wf := scatter_S20000x1_S4096x1_S4096x1_1_0_0_1_wf
def scatter_S10000_S4096x1_S4096_n_0_0_1 : ScatterDims S10000 S4096x1 S4096 where
  updateWindowDims := []
  insertedWindowDims := [0]
  scatterDimsToOperandDims := [0]
  indexVectorDim := 1
  wf := scatter_S10000_S4096x1_S4096_n_0_0_1_wf
def dot_S1000x64_S1024x64_S1000x1024_1_1_0_0_n_n : DotDims S1000x64 S1024x64 S1000x1024 where
  lhsContracting := [1]
  rhsContracting := [1]
  lhsNonContracting := [0]
  rhsNonContracting := [0]
  lhsBatch := []
  rhsBatch := []
  wf := dot_S1000x64_S1024x64_S1000x1024_1_1_0_0_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1000x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v55) S1000x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S20000x64 : Shape := ⟨2, ![20000, 64]⟩
abbrev S10000x64 : Shape := ⟨2, ![10000, 64]⟩
abbrev S20000x1 : Shape := ⟨2, ![20000, 1]⟩
abbrev S10000 : Shape := ⟨1, ![10000]⟩
abbrev S4096 : Shape := ⟨1, ![4096]⟩
abbrev S_ : Shape := ⟨0, ![]⟩
abbrev S20000x10000 : Shape := ⟨2, ![20000, 10000]⟩
abbrev S4096x1 : Shape := ⟨2, ![4096, 1]⟩
abbrev S4096x2 : Shape := ⟨2, ![4096, 2]⟩
abbrev S4096x64 : Shape := ⟨2, ![4096, 64]⟩
abbrev S1x10000 : Shape := ⟨2, ![1, 10000]⟩

abbrev nBuf : Space → Nat
  | .hbm => 91
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S10000x64, .f32⟩
  | .hbm, ⟨2, _⟩ => ⟨S20000x1, .f32⟩
  | .hbm, ⟨3, _⟩ => ⟨S10000, .f32⟩
  | .hbm, ⟨4, _⟩ => ⟨S4096, .i32⟩
  | .hbm, ⟨5, _⟩ => ⟨S4096, .i32⟩
  | .hbm, ⟨6, _⟩ => ⟨S_, .f32⟩
  | .hbm, ⟨7, _⟩ => ⟨S20000x10000, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x1, .i32⟩
  | .hbm, ⟨24, _⟩ => ⟨S4096x2, .i32⟩
  | .hbm, ⟨25, _⟩ => ⟨S_, .f32⟩
  | .hbm, ⟨26, _⟩ => ⟨S4096, .f32⟩
  | .hbm, ⟨27, _⟩ => ⟨S20000x10000, .f32⟩
  | .hbm, ⟨28, _⟩ => ⟨S_, .f32⟩
  | .hbm, ⟨29, _⟩ => ⟨S20000x64, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S_, .f32⟩
  | .hbm, ⟨39, _⟩ => ⟨S4096x64, .f32⟩
  | .hbm, ⟨40, _⟩ => ⟨S20000x64, .f32⟩
  | .hbm, ⟨41, _⟩ => ⟨S_, .f32⟩
  | .hbm, ⟨42, _⟩ => ⟨S10000x64, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S_, .f32⟩
  | .hbm, ⟨52, _⟩ => ⟨S4096x64, .f32⟩
  | .hbm, ⟨53, _⟩ => ⟨S10000x64, .f32⟩
  | .hbm, ⟨54, _⟩ => ⟨S_, .f32⟩
  | .hbm, ⟨55, _⟩ => ⟨S20000x1, .f32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S_, .f32⟩
  | .hbm, ⟨65, _⟩ => ⟨S4096x1, .f32⟩
  | .hbm, ⟨66, _⟩ => ⟨S20000x1, .f32⟩
  | .hbm, ⟨67, _⟩ => ⟨S_, .f32⟩
  | .hbm, ⟨68, _⟩ => ⟨S10000, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S_, .f32⟩
  | .hbm, ⟨78, _⟩ => ⟨S4096, .f32⟩
  | .hbm, ⟨79, _⟩ => ⟨S10000, .f32⟩
  | .hbm, ⟨80, _⟩ => ⟨S20000x10000, .f32⟩
  | .hbm, ⟨81, _⟩ => ⟨S20000x10000, .f32⟩
  | .hbm, ⟨82, _⟩ => ⟨S20000x10000, .f32⟩
  | .hbm, ⟨83, _⟩ => ⟨S1x10000, .f32⟩
  | .hbm, ⟨84, _⟩ => ⟨S20000x10000, .f32⟩
  | .hbm, ⟨85, _⟩ => ⟨S20000x10000, .f32⟩
  | .hbm, ⟨86, _⟩ => ⟨S20000x10000, .f32⟩
  | .hbm, ⟨87, _⟩ => ⟨S20000x64, .f32⟩
  | .hbm, ⟨88, _⟩ => ⟨S20000x1, .f32⟩
  | .hbm, ⟨89, _⟩ => ⟨S10000x64, .f32⟩
  | .hbm, ⟨90, _⟩ => ⟨S10000, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_c_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_cst_12 : Ref sig .tc := ⟨.hbm, 54, rfl⟩
abbrev main_v34 : Ref sig .tc := ⟨.hbm, 55, rfl⟩
abbrev main_c_13 : Ref sig .tc := ⟨.hbm, 56, rfl⟩
abbrev main_v35 : Ref sig .tc := ⟨.hbm, 57, rfl⟩
abbrev main_v36 : Ref sig .tc := ⟨.hbm, 58, rfl⟩
abbrev main_c_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_15 : Ref sig .tc := ⟨.hbm, 64, rfl⟩
abbrev main_v41 : Ref sig .tc := ⟨.hbm, 65, rfl⟩
abbrev main_v42 : Ref sig .tc := ⟨.hbm, 66, rfl⟩
abbrev main_cst_16 : Ref sig .tc := ⟨.hbm, 67, rfl⟩
abbrev main_v43 : Ref sig .tc := ⟨.hbm, 68, rfl⟩
abbrev main_c_17 : Ref sig .tc := ⟨.hbm, 69, rfl⟩
abbrev main_v44 : Ref sig .tc := ⟨.hbm, 70, rfl⟩
abbrev main_v45 : Ref sig .tc := ⟨.hbm, 71, rfl⟩
abbrev main_c_18 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_19 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S20000x10000 : S_.BroadcastsInDim S20000x10000 (![] : Fin 0 → Fin S20000x10000.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S20000x64 : S_.BroadcastsInDim S20000x64 (![] : Fin 0 → Fin S20000x64.rank)
  bcast_S_S4096x64 : S_.BroadcastsInDim S4096x64 (![] : Fin 0 → Fin S4096x64.rank)
  bcast_S_S10000x64 : S_.BroadcastsInDim S10000x64 (![] : Fin 0 → Fin S10000x64.rank)
  bcast_S_S20000x1 : S_.BroadcastsInDim S20000x1 (![] : Fin 0 → Fin S20000x1.rank)
  bcast_S_S4096x1 : S_.BroadcastsInDim S4096x1 (![] : Fin 0 → Fin S4096x1.rank)
  bcast_S_S10000 : S_.BroadcastsInDim S10000 (![] : Fin 0 → Fin S10000.rank)
  bcast_S20000x1_S20000x10000_0_1 : S20000x1.BroadcastsInDim S20000x10000 (![0, 1] : Fin 2 → Fin S20000x10000.rank)
  bcast_S10000_S1x10000_1 : S10000.BroadcastsInDim S1x10000 (![1] : Fin 1 → Fin S1x10000.rank)
  bcast_S1x10000_S20000x10000_0_1 : S1x10000.BroadcastsInDim S20000x10000 (![0, 1] : Fin 2 → Fin S20000x10000.rank)
  scatter_S20000x10000_S4096x2_S4096_n_01_01_1_wf : ScatterDims.WF S20000x10000 S4096x2 S4096 [] [0, 1] [0, 1] 1
  scatter_S20000x64_S4096x1_S4096x64_1_0_0_1_wf : ScatterDims.WF S20000x64 S4096x1 S4096x64 [1] [0] [0] 1
  scatter_S10000x64_S4096x1_S4096x64_1_0_0_1_wf : ScatterDims.WF S10000x64 S4096x1 S4096x64 [1] [0] [0] 1
  scatter_S20000x1_S4096x1_S4096x1_1_0_0_1_wf : ScatterDims.WF S20000x1 S4096x1 S4096x1 [1] [0] [0] 1
  scatter_S10000_S4096x1_S4096_n_0_0_1_wf : ScatterDims.WF S10000 S4096x1 S4096 [] [0] [0] 1
  dot_S20000x64_S10000x64_S20000x10000_1_1_0_0_n_n_wf : DotDims.WF S20000x64 S10000x64 S20000x10000 [1] [1] [0] [0] [] []

variable [Facts₀]

def scatter_S20000x10000_S4096x2_S4096_n_01_01_1 : ScatterDims S20000x10000 S4096x2 S4096 where
  updateWindowDims := []
  insertedWindowDims := [0, 1]
  scatterDimsToOperandDims := [0, 1]
  indexVectorDim := 1
  wf := scatter_S20000x10000_S4096x2_S4096_n_01_01_1_wf
def scatter_S20000x64_S4096x1_S4096x64_1_0_0_1 : ScatterDims S20000x64 S4096x1 S4096x64 where
  updateWindowDims := [1]
  insertedWindowDims := [0]
  scatterDimsToOperandDims := [0]
  indexVectorDim := 1
  wf := scatter_S20000x64_S4096x1_S4096x64_1_0_0_1_wf
def scatter_S10000x64_S4096x1_S4096x64_1_0_0_1 : ScatterDims S10000x64 S4096x1 S4096x64 where
  updateWindowDims := [1]
  insertedWindowDims := [0]
  scatterDimsToOperandDims := [0]
  indexVectorDim := 1
  wf := scatter_S10000x64_S4096x1_S4096x64_1_0_0_1_wf
def scatter_S20000x1_S4096x1_S4096x1_1_0_0_1 : ScatterDims S20000x1 S4096x1 S4096x1 where
  updateWindowDims := [1]
  insertedWindowDims := [0]
  scatterDimsToOperandDims := [0]
  indexVectorDim := 1
  wf := scatter_S20000x1_S4096x1_S4096x1_1_0_0_1_wf
def scatter_S10000_S4096x1_S4096_n_0_0_1 : ScatterDims S10000 S4096x1 S4096 where
  updateWindowDims := []
  insertedWindowDims := [0]
  scatterDimsToOperandDims := [0]
  indexVectorDim := 1
  wf := scatter_S10000_S4096x1_S4096_n_0_0_1_wf
def dot_S20000x64_S10000x64_S20000x10000_1_1_0_0_n_n : DotDims S20000x64 S10000x64 S20000x10000 where
  lhsContracting := [1]
  rhsContracting := [1]
  lhsNonContracting := [0]
  rhsNonContracting := [0]
  lhsBatch := []
  rhsBatch := []
  wf := dot_S20000x64_S10000x64_S20000x10000_1_1_0_0_n_n_wf

class Facts : Prop extends Facts₀ where

variable [Facts]
-- ==== Proof.KernelBlock.lean ====
/-
  One grid point's arithmetic, read at an index of the output block.

  The body of the kernel multiplies a block of 1000 user rows by a block of 1024 item rows over the 64 factors,
  adds the user bias (one per row) and the item bias (one per column), and multiplies by the mask block. Over the
  extended reals the changes of float format are the identity and the matrix product into a zero accumulator is
  the plain sum over the 64 factors, so entry (p, q) of the block is
      ((∑ k, U p k · I q k) + bu p + bi q) · mask p q .
-/
import proofs.«118246_j72370198938200_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The left operand's row is the output's row. -/
theorem lhs_row (i : S1000x1024.Idx) (r : dot_S1000x64_S1024x64_S1000x1024_1_1_0_0_n_n.contr.Idx) :
    (dot_S1000x64_S1024x64_S1000x1024_1_1_0_0_n_n.lhsIdx i r 0).val = (i 0).val := by
  unfold DotDims.lhsIdx
  rw [dif_neg (show ¬(0 : Fin S1000x64.rank) ∈ dot_S1000x64_S1024x64_S1000x1024_1_1_0_0_n_n.lhsBatch by decide),
    dif_pos (show (0 : Fin S1000x64.rank) ∈ dot_S1000x64_S1024x64_S1000x1024_1_1_0_0_n_n.lhsNonContracting by decide)]
  rfl
/-- The left operand's column is the contracted factor. -/
theorem lhs_col (i : S1000x1024.Idx) (r : dot_S1000x64_S1024x64_S1000x1024_1_1_0_0_n_n.contr.Idx) :
    (dot_S1000x64_S1024x64_S1000x1024_1_1_0_0_n_n.lhsIdx i r 1).val = (r ⟨0, by decide⟩).val :=
  dot_S1000x64_S1024x64_S1000x1024_1_1_0_0_n_n.lhsIdx_val_of_single rfl i r
/-- The right operand's row is the output's column (the product contracts the factor axis of both operands). -/
theorem rhs_row (i : S1000x1024.Idx) (r : dot_S1000x64_S1024x64_S1000x1024_1_1_0_0_n_n.contr.Idx) :
    (dot_S1000x64_S1024x64_S1000x1024_1_1_0_0_n_n.rhsIdx i r 0).val = (i 1).val := by
  unfold DotDims.rhsIdx
  rw [dif_neg (show ¬(0 : Fin S1024x64.rank) ∈ dot_S1000x64_S1024x64_S1000x1024_1_1_0_0_n_n.rhsBatch by decide),
    dif_pos (show (0 : Fin S1024x64.rank) ∈ dot_S1000x64_S1024x64_S1000x1024_1_1_0_0_n_n.rhsNonContracting by decide)]
  rfl
/-- The right operand's column is the contracted factor. -/
theorem rhs_col (i : S1000x1024.Idx) (r : dot_S1000x64_S1024x64_S1000x1024_1_1_0_0_n_n.contr.Idx) :
    (dot_S1000x64_S1024x64_S1000x1024_1_1_0_0_n_n.rhsIdx i r 1).val = (r ⟨0, by decide⟩).val :=
  dot_S1000x64_S1024x64_S1000x1024_1_1_0_0_n_n.rhsIdx_val_of_single rfl i r

/-- The left operand's index of the block product: row `p`, factor `k`. -/
theorem lhs_idx (p : Fin 1000) (q : Fin 1024) (k : Fin 64) :
    dot_S1000x64_S1024x64_S1000x1024_1_1_0_0_n_n.lhsIdx (ix2 p q)
      ((contrEquiv1 dot_S1000x64_S1024x64_S1000x1024_1_1_0_0_n_n 64 rfl rfl).symm k) = ix2 p k := by
  have hk := contrEquiv1_symm_val dot_S1000x64_S1024x64_S1000x1024_1_1_0_0_n_n 64 rfl rfl k
  exact funext fun a => Fin.ext (by
    match a with
    | ⟨0, _⟩ => exact lhs_row _ _
    | ⟨1, _⟩ => exact (lhs_col _ _).trans hk)

/-- The right operand's index of the block product: row `q`, factor `k`. -/
theorem rhs_idx (p : Fin 1000) (q : Fin 1024) (k : Fin 64) :
    dot_S1000x64_S1024x64_S1000x1024_1_1_0_0_n_n.rhsIdx (ix2 p q)
      ((contrEquiv1 dot_S1000x64_S1024x64_S1000x1024_1_1_0_0_n_n 64 rfl rfl).symm k) = ix2 q k := by
  have hk := contrEquiv1_symm_val dot_S1000x64_S1024x64_S1000x1024_1_1_0_0_n_n 64 rfl rfl k
  exact funext fun a => Fin.ext (by
    match a with
    | ⟨0, _⟩ => exact rhs_row _ _
    | ⟨1, _⟩ => exact (rhs_col _ _).trans hk)

/-- The block product at (p, q) is the sum over the 64 factors. -/
theorem product_apply (a : FVec Ideal S1000x64 .bf16) (b : FVec Ideal S1024x64 .bf16) (p : Fin 1000) (q : Fin 1024) :
    matmul dot_S1000x64_S1024x64_S1000x1024_1_1_0_0_n_n none a b (constant (F := Ideal) S1000x1024 .f32 0x00000000#32) (ix2 p q)
      = ∑ k : Fin 64, a (ix2 p k) * b (ix2 q k) := by
  refine (Ideal.matmul_constant_zero_apply dot_S1000x64_S1024x64_S1000x1024_1_1_0_0_n_n none a b (ix2 p q)).trans ?_
  rw [← Equiv.sum_comp (contrEquiv1 dot_S1000x64_S1024x64_S1000x1024_1_1_0_0_n_n 64 rfl rfl).symm]
  refine Finset.sum_congr rfl fun k _ => ?_
  rw [lhs_idx, rhs_idx]

/-- A column of 1000 values spread over 1024 columns reads its row. -/
theorem spread_rows_apply (x : FVec Ideal S1000x1 .f32) (p : Fin 1000) (q : Fin 1024) :
    broadcastTo S1000x1024 x broadcasts_S1000x1_S1000x1024 (ix2 p q) = x (ix2 p 0) :=
  broadcastTo_apply x broadcasts_S1000x1_S1000x1024 (ix2 p q) (ix2 p 0) (fun a => match a with
    | ⟨0, _⟩ => by show p.val = if (1000 : Nat) = 1 then 0 else p.val; rw [if_neg (by decide)]
    | ⟨1, _⟩ => by show (0 : Nat) = if (1 : Nat) = 1 then 0 else q.val; rw [if_pos rfl])

/-- A row of 1024 values spread over 1000 rows reads its column. -/
theorem spread_cols_apply (x : FVec Ideal S1x1024 .f32) (p : Fin 1000) (q : Fin 1024) :
    broadcastTo S1000x1024 x broadcasts_S1x1024_S1000x1024 (ix2 p q) = x (ix2 0 q) :=
  broadcastTo_apply x broadcasts_S1x1024_S1000x1024 (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- Entry (p, q) of what one grid point stores: the biased product of the user and item blocks, masked. -/
theorem payload_apply (x0 : FVec Ideal S1000x64 .f32) (x1 : FVec Ideal S1024x64 .f32) (x2 : FVec Ideal S1000x1 .f32)
    (x3 : FVec Ideal S1x1024 .f32) (x4 : FVec Ideal S1000x1024 .f32) (p : Fin 1000) (q : Fin 1024) :
    k0_pay1 (F := Ideal) x0 x1 x2 x3 x4 (ix2 p q)
      = ((∑ k : Fin 64, x0 (ix2 p k) * x1 (ix2 q k)) + x2 (ix2 p 0) + x3 (ix2 0 q)) * x4 (ix2 p q) := by
  unfold k0_pay1
  rw [shapeCast_self, shapeCast_self, shapeCast_self]
  rw [mulf_apply, addf_apply, addf_apply, spread_rows_apply, spread_cols_apply, product_apply]
  rfl

/-- Entry (r, c) of the padded masked score matrix, as a function of the five arrays the grid reads: the user
    factors, the item factors padded to 10240 rows, the user bias column, the padded item bias row and the padded
    mask. -/
def scoreAt (uf : FVec Ideal S20000x64 .f32) (itf : FVec Ideal S10240x64 .f32) (ub : FVec Ideal S20000x1 .f32)
    (ib : FVec Ideal S1x10240 .f32) (mask : FVec Ideal S20000x10240 .f32) (r : Fin 20000) (c : Fin 10240) : EReal :=
  ((∑ k : Fin 64, uf (ix2 r k) * itf (ix2 c k)) + ub (ix2 r 0) + ib (ix2 0 c)) * mask (ix2 r c)

/-- The padded masked score matrix. -/
def scores (uf : FVec Ideal S20000x64 .f32) (itf : FVec Ideal S10240x64 .f32) (ub : FVec Ideal S20000x1 .f32)
    (ib : FVec Ideal S1x10240 .f32) (mask : FVec Ideal S20000x10240 .f32) : FVec Ideal S20000x10240 .f32 :=
  fun j => scoreAt uf itf ub ib mask ⟨(j 0).val, (j 0).isLt⟩ ⟨(j 1).val, (j 1).isLt⟩

/-- If the five blocks a grid point loads are the rows and columns of the five arrays that entry (r, c) of the
    score matrix reads, the point stores that entry at (p, q). -/
theorem point_eq (x0 : FVec Ideal S1000x64 .f32) (x1 : FVec Ideal S1024x64 .f32) (x2 : FVec Ideal S1000x1 .f32)
    (x3 : FVec Ideal S1x1024 .f32) (x4 : FVec Ideal S1000x1024 .f32)
    (uf : FVec Ideal S20000x64 .f32) (itf : FVec Ideal S10240x64 .f32) (ub : FVec Ideal S20000x1 .f32)
    (ib : FVec Ideal S1x10240 .f32) (mask : FVec Ideal S20000x10240 .f32)
    (p : Fin 1000) (q : Fin 1024) (r : Fin 20000) (c : Fin 10240)
    (h0 : ∀ k : Fin 64, x0 (ix2 p k) = uf (ix2 r k)) (h1 : ∀ k : Fin 64, x1 (ix2 q k) = itf (ix2 c k))
    (h2 : x2 (ix2 p 0) = ub (ix2 r 0)) (h3 : x3 (ix2 0 q) = ib (ix2 0 c)) (h4 : x4 (ix2 p q) = mask (ix2 r c)) :
    k0_pay1 (F := Ideal) x0 x1 x2 x3 x4 (ix2 p q) = scoreAt uf itf ub ib mask r c := by
  rw [payload_apply, h2, h3, h4]
  unfold scoreAt
  simp only [h0, h1]

end Cert.KernelIdeal.Block

end
-- ==== Proof.BlockReads.lean ====
/-
  Each input block of a grid point, read at an index, is the staged array read at the block's offset plus the
  index: on every axis the array coordinate is the block number times the block's extent plus the coordinate
  inside the block.
-/
import proofs.«118246_j72370198938200_1_alg».proof.Proof.Gen.KernelIdeal.Frame
import Idealize.ShloMosaic.Lib.Pipeline.Value
import Idealize.ShloMosaic.Lib.ValueIdx
import Idealize.ShloMosaic.PureOps.Ideal

noncomputable section

namespace Cert.KernelIdeal.Arr

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

theorem iblk0_eq (c : Dev nD) (t : Fin cfg0.N) (p : Fin 1000) (k : Fin 64) (r : Fin 20000)
    (hr : r.val = win0_0.index t (0 : Fin 2) * 1000 + p.val) (h1 : win0_0.index t (1 : Fin 2) = 0) :
    (iblk m c 0 t : FVec Ideal S1000x64 .f32) (ix2 p k) = (V m c main_arg0 : FVec Ideal S20000x64 .f32) (ix2 r k) := by
  unfold iblk
  rw [View.read_apply]
  refine congrArg (V m c main_arg0) (funext fun a => Fin.ext ?_)
  match a with
  | ⟨0, _⟩ => show win0_0.index t (0 : Fin 2) * 1000 + 1 * p.val = r.val; omega
  | ⟨1, _⟩ => show win0_0.index t (1 : Fin 2) * 64 + 1 * k.val = k.val; omega

theorem iblk1_eq (c : Dev nD) (t : Fin cfg0.N) (q : Fin 1024) (k : Fin 64) (cc : Fin 10240)
    (hr : cc.val = win0_1.index t (0 : Fin 2) * 1024 + q.val) (h1 : win0_1.index t (1 : Fin 2) = 0) :
    (iblk m c 1 t : FVec Ideal S1024x64 .f32) (ix2 q k) = (V m c main_v52 : FVec Ideal S10240x64 .f32) (ix2 cc k) := by
  unfold iblk
  rw [View.read_apply]
  refine congrArg (V m c main_v52) (funext fun a => Fin.ext ?_)
  match a with
  | ⟨0, _⟩ => show win0_1.index t (0 : Fin 2) * 1024 + 1 * q.val = cc.val; omega
  | ⟨1, _⟩ => show win0_1.index t (1 : Fin 2) * 64 + 1 * k.val = k.val; omega

theorem iblk2_eq (c : Dev nD) (t : Fin cfg0.N) (p : Fin 1000) (r : Fin 20000)
    (hr : r.val = win0_2.index t (0 : Fin 2) * 1000 + p.val) (h1 : win0_2.index t (1 : Fin 2) = 0) :
    (iblk m c 2 t : FVec Ideal S1000x1 .f32) (ix2 p (0 : Fin 1)) = (V m c main_arg2 : FVec Ideal S20000x1 .f32) (ix2 r (0 : Fin 1)) := by
  unfold iblk
  rw [View.read_apply]
  refine congrArg (V m c main_arg2) (funext fun a => Fin.ext ?_)
  match a with
  | ⟨0, _⟩ => show win0_2.index t (0 : Fin 2) * 1000 + 1 * p.val = r.val; omega
  | ⟨1, _⟩ => show win0_2.index t (1 : Fin 2) * 1 + 1 * 0 = 0; omega

theorem iblk3_eq (c : Dev nD) (t : Fin cfg0.N) (q : Fin 1024) (cc : Fin 10240)
    (hr : cc.val = win0_3.index t (1 : Fin 2) * 1024 + q.val) (h1 : win0_3.index t (0 : Fin 2) = 0) :
    (iblk m c 3 t : FVec Ideal S1x1024 .f32) (ix2 (0 : Fin 1) q) = (V m c main_v54 : FVec Ideal S1x10240 .f32) (ix2 (0 : Fin 1) cc) := by
  unfold iblk
  rw [View.read_apply]
  refine congrArg (V m c main_v54) (funext fun a => Fin.ext ?_)
  match a with
  | ⟨0, _⟩ => show win0_3.index t (0 : Fin 2) * 1 + 1 * 0 = 0; omega
  | ⟨1, _⟩ => show win0_3.index t (1 : Fin 2) * 1024 + 1 * q.val = cc.val; omega

theorem iblk4_eq (c : Dev nD) (t : Fin cfg0.N) (p : Fin 1000) (q : Fin 1024) (r : Fin 20000) (cc : Fin 10240)
    (hr : r.val = win0_4.index t (0 : Fin 2) * 1000 + p.val) (hc : cc.val = win0_4.index t (1 : Fin 2) * 1024 + q.val) :
    (iblk m c 4 t : FVec Ideal S1000x1024 .f32) (ix2 p q) = (V m c main_v15 : FVec Ideal S20000x10240 .f32) (ix2 r cc) := by
  unfold iblk
  rw [View.read_apply]
  refine congrArg (V m c main_v15) (funext fun a => Fin.ext ?_)
  match a with
  | ⟨0, _⟩ => show win0_4.index t (0 : Fin 2) * 1000 + 1 * p.val = r.val; omega
  | ⟨1, _⟩ => show win0_4.index t (1 : Fin 2) * 1024 + 1 * q.val = cc.val; omega

end Cert.KernelIdeal.Arr

end
-- ==== Proof.KernelArray.lean ====
/-
  The padded score matrix after the grid has run.

  The grid has 20 × 10 points; point (a, b) stores rows 1000a … 1000a + 999 and columns 1024b … 1024b + 1023 of
  the output, computed from the matching 1000 user rows, 1024 item rows, user biases, item biases and mask block.
  The blocks tile the 20000 × 10240 output, so after the last point the output holds, at every index, the masked
  biased product of that row's user factors and that column's item factors.
-/
import proofs.«118246_j72370198938200_1_alg».proof.Proof.Gen.KernelIdeal.Frame
import proofs.«118246_j72370198938200_1_alg».proof.Proof.KernelBlock
import proofs.«118246_j72370198938200_1_alg».proof.Proof.BlockReads
import Idealize.ShloMosaic.Lib.Pipeline.Value

noncomputable section

namespace Cert.KernelIdeal.Arr

open Cert.KernelIdeal Cert.KernelIdeal.Gen Cert.KernelIdeal.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- How the six index maps move over the grid: the user factors, the user bias and the output share the row
    block; the item factors and the item bias follow the output's column block; the mask moves with the output;
    and the block numbers stay inside 20 × 10. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_5.index t (0 : Fin 2) ≤ 19 ∧ win0_5.index t (1 : Fin 2) ≤ 9 :=
  (by decide +kernel : ∀ t : Fin grid0.N, _)

/-- Every (row block, column block) pair is some grid point's. -/
theorem idx_onto : ∀ (q0 : Fin 20) (q1 : Fin 10), ∃ t : Fin cfg0.N, win0_5.index t = ![q0.val, q1.val] :=
  (by decide +kernel : ∀ (q0 : Fin 20) (q1 : Fin 10), ∃ t : Fin grid0.N, win0_5.index t = ![q0.val, q1.val])

/-- What a grid point stores at an index of its block is the score matrix's entry under that index. -/
theorem block_eq (c : Dev nD) (t : Fin cfg0.N) (y : S1000x1024.Idx) :
    k0_pay1 (F := Ideal) (iblk m c 0 t) (iblk m c 1 t) (iblk m c 2 t) (iblk m c 3 t) (iblk m c 4 t) y
      = ((cfg0.win 5).blk t).view.read (Elt Ideal)
          (scores (V m c main_arg0) (V m c main_v52) (V m c main_arg2) (V m c main_v54) (V m c main_v15)) y := by
  obtain ⟨e00, e01, e10, e11, e20, e21, e30, e31, e40, e41, b0, b1⟩ := idx_facts t
  obtain ⟨p, q, rfl⟩ : ∃ (p : Fin 1000) (q : Fin 1024), y = ix2 p q := ⟨y 0, y 1, eq_ix2 y⟩
  have hp : p.val < 1000 := p.isLt
  have hq : q.val < 1024 := q.isLt
  rw [View.read_apply]
  have h0 : ((((cfg0.win 5).blk t).view.emb (ix2 p q)) (0 : Fin 2)).val = win0_5.index t (0 : Fin 2) * 1000 + p.val := by
    show win0_5.index t (0 : Fin 2) * 1000 + 1 * p.val = _; omega
  have h1 : ((((cfg0.win 5).blk t).view.emb (ix2 p q)) (1 : Fin 2)).val = win0_5.index t (1 : Fin 2) * 1024 + q.val := by
    show win0_5.index t (1 : Fin 2) * 1024 + 1 * q.val = _; omega
  show _ = scoreAt _ _ _ _ _ ⟨((((cfg0.win 5).blk t).view.emb (ix2 p q)) (0 : Fin 2)).val, _⟩
    ⟨((((cfg0.win 5).blk t).view.emb (ix2 p q)) (1 : Fin 2)).val, _⟩
  exact point_eq _ _ _ _ _ _ _ _ _ _ p q _ _
    (fun k => iblk0_eq m c t p k _ (by rw [e00]; exact h0) e01)
    (fun k => iblk1_eq m c t q k _ (by rw [e10]; exact h1) e11)
    (iblk2_eq m c t p _ (by rw [e20]; exact h0) e21)
    (iblk3_eq m c t q _ (by rw [e31]; exact h1) e30)
    (iblk4_eq m c t p q _ _ (by rw [e40]; exact h0) (by rw [e41]; exact h1))

/-- What a grid point writes back is its block of the score matrix. -/
theorem flushed_eq (c : Dev nD) (t : Fin cfg0.N) :
    (dats m 0 c).flushed 5 t = ((cfg0.win 5).blk t).view.read (Elt Ideal)
      (scores (V m c main_arg0) (V m c main_v52) (V m c main_arg2) (V m c main_v54) (V m c main_v15)) := by
  show (cfg0.win 5).cut (grid0.coords t) ((dats m 0 c).after 5 t) = _
  rw [after0_5]
  unfold out0_5
  rw [View.canon_unit_zero hz]
  simp only [View.ld_unit_zero (S := S1000x64) hz, View.ld_unit_zero (S := S1024x64) hz, View.ld_unit_zero (S := S1000x1) hz,
    View.ld_unit_zero (S := S1x1024) hz, View.ld_unit_zero (S := S1000x1024) hz]
  funext y
  exact block_eq m c t y

/-- An index of the output is in a point's block iff each coordinate is in the block's range. -/
theorem mem_blk (t : Fin cfg0.N) (i : S20000x10240.Idx) :
    i ∈ ((cfg0.win 5).blk t).view.set ↔ ∀ a : Fin 2, win0_5.index t a * S1000x1024.size a ≤ (i a).val ∧ (i a).val < win0_5.index t a * S1000x1024.size a + S1000x1024.size a := by
  show i ∈ ((View.whole main_v55).slice (win0_5.rect t)).set ↔ _
  rw [View.set_slice_whole, Rect.mem_set_unit]
  exact Iff.rfl

/-- The blocks cover the output: row r, column c is in the block of point (r / 1000, c / 1024). -/
theorem cover (i : S20000x10240.Idx) : ∃ t : Fin cfg0.N, (cfg0.win 5).flush t = true ∧ i ∈ ((cfg0.win 5).blk t).view.set := by
  have hi0 : (i 0).val < 20000 := (i 0).isLt
  have hi1 : (i 1).val < 10240 := (i 1).isLt
  obtain ⟨t, ht⟩ := idx_onto ⟨(i 0).val / 1000, by omega⟩ ⟨(i 1).val / 1024, by omega⟩
  have q0 : win0_5.index t (0 : Fin 2) = (i 0).val / 1000 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 1000 ≤ (i 0).val ∧ (i 0).val < win0_5.index t (0 : Fin 2) * 1000 + 1000; omega
  | ⟨1, _⟩ => show win0_5.index t (1 : Fin 2) * 1024 ≤ (i 1).val ∧ (i 1).val < win0_5.index t (1 : Fin 2) * 1024 + 1024; omega

/-- After the last point the output array is the score matrix of the five arrays as the grid found them. -/
theorem final (c : Dev nD) : (dats m 0 c).arrAt 5 cfg0.N
    = scores (V m c main_arg0) (V m c main_v52) (V m c main_arg2) (V m c main_v54) (V m c main_v15) :=
  (dats m 0 c).arrAt_eq_of_cover 5 _ (fun t _ => flushed_eq m c t) cover

end Cert.KernelIdeal.Arr

end
-- ==== Proof.HostTerms.lean ====
/-
  The arrays the host prepares before the grid runs, as functions of the arguments: the item factors and the
  item bias padded with 240 rows (entries) of the padding value up to 10240, the bias then laid out as one row;
  the mask of interactions scattered into a 20000 × 10240 array of zeros; and the four small masks, each a scatter
  of ones into zeros at the indices, negative indices first moved up by the extent of the axis they index.
-/
import proofs.«118246_j72370198938200_1_alg».proof.KernelIdeal
import Idealize.ShloMosaic.PureOps.Ideal

noncomputable section

namespace Cert.KernelIdeal.Host

open Cert.KernelIdeal Idealize.ShloMosaic

variable [Facts]
open Facts₀ Facts

/-- The item factors, padded below with 240 rows of the padding value. -/
abbrev itfPadOf (x1 : FVec Ideal S10000x64 .f32) : FVec Ideal S10240x64 .f32 :=
  pad S10240x64 ![0, 0] ![240, 0] ![0, 0] x1 (sitofp (F := Ideal) .f32 (constantI S_ 32 0#32)) pads_S10000x64_S10240x64_02400_000 h_S_
/-- The item bias, padded with 240 entries of the padding value, as a 1 × 10240 row. -/
abbrev ibPadOf (x3 : FVec Ideal S10000 .f32) : FVec Ideal S1x10240 .f32 :=
  shapeCast S1x10240 (pad S10240 ![0] ![240] ![0] x3 (sitofp (F := Ideal) .f32 (constantI S_ 32 0#32)) pads_S10000_S10240_02400 h_S_) shapeCasts_S10240_S1x10240
/-- The interaction mask at the padded width: ones scattered into zeros at the (user, item) pairs. -/
abbrev maskPadOf (x4 x5 : IVec S4096 32) : FVec Ideal S20000x10240 .f32 :=
  Host.scatter scatter_S20000x10240_S4096x2_S4096_n_01_01_1 (fun _ b => b) (broadcastInDim S20000x10240 ![] bcast_S_S20000x10240 (constant (F := Ideal) S_ .f32 0x00000000#32)) (concatenate S4096x2 1 [⟨S4096x1, (broadcastInDim S4096x1 ![0] bcast_S4096_S4096x1_0 (select (cmpi .slt x4 (broadcastInDim S4096 ![] bcast_S_S4096 (constantI S_ 32 0#32))) (addi x4 (broadcastInDim S4096 ![] bcast_S_S4096 (constantI S_ 32 20000#32))) x4))⟩, ⟨S4096x1, (broadcastInDim S4096x1 ![0] bcast_S4096_S4096x1_0 (select (cmpi .slt x5 (broadcastInDim S4096 ![] bcast_S_S4096 (constantI S_ 32 0#32))) (addi x5 (broadcastInDim S4096 ![] bcast_S_S4096 (constantI S_ 32 10240#32))) x5))⟩] concatenates_S4096x1_S4096x1_S4096x2_d1) (broadcastInDim S4096 ![] bcast_S_S4096 (constant (F := Ideal) S_ .f32 0x3F800000#32))
/-- The user-factor mask: rows of ones at the users named. -/
abbrev ufMaskOf (x4 : IVec S4096 32) : FVec Ideal S20000x64 .f32 :=
  Host.scatter scatter_S20000x64_S4096x1_S4096x64_1_0_0_1 (fun _ b => b) (broadcastInDim S20000x64 ![] bcast_S_S20000x64 (constant (F := Ideal) S_ .f32 0x00000000#32)) (broadcastInDim S4096x1 ![0] bcast_S4096_S4096x1_0 (select (cmpi .slt x4 (broadcastInDim S4096 ![] bcast_S_S4096 (constantI S_ 32 0#32))) (addi x4 (broadcastInDim S4096 ![] bcast_S_S4096 (constantI S_ 32 20000#32))) x4)) (broadcastInDim S4096x64 ![] bcast_S_S4096x64 (constant (F := Ideal) S_ .f32 0x3F800000#32))
/-- The user-bias mask. -/
abbrev ubMaskOf (x4 : IVec S4096 32) : FVec Ideal S20000x1 .f32 :=
  Host.scatter scatter_S20000x1_S4096x1_S4096x1_1_0_0_1 (fun _ b => b) (broadcastInDim S20000x1 ![] bcast_S_S20000x1 (constant (F := Ideal) S_ .f32 0x00000000#32)) (broadcastInDim S4096x1 ![0] bcast_S4096_S4096x1_0 (select (cmpi .slt x4 (broadcastInDim S4096 ![] bcast_S_S4096 (constantI S_ 32 0#32))) (addi x4 (broadcastInDim S4096 ![] bcast_S_S4096 (constantI S_ 32 20000#32))) x4)) (broadcastInDim S4096x1 ![] bcast_S_S4096x1 (constant (F := Ideal) S_ .f32 0x3F800000#32))
/-- The item-factor mask. -/
abbrev ifMaskOf (x5 : IVec S4096 32) : FVec Ideal S10000x64 .f32 :=
  Host.scatter scatter_S10000x64_S4096x1_S4096x64_1_0_0_1 (fun _ b => b) (broadcastInDim S10000x64 ![] bcast_S_S10000x64 (constant (F := Ideal) S_ .f32 0x00000000#32)) (broadcastInDim S4096x1 ![0] bcast_S4096_S4096x1_0 (select (cmpi .slt x5 (broadcastInDim S4096 ![] bcast_S_S4096 (constantI S_ 32 0#32))) (addi x5 (broadcastInDim S4096 ![] bcast_S_S4096 (constantI S_ 32 10000#32))) x5)) (broadcastInDim S4096x64 ![] bcast_S_S4096x64 (constant (F := Ideal) S_ .f32 0x3F800000#32))
/-- The item-bias mask. -/
abbrev ibMaskOf (x5 : IVec S4096 32) : FVec Ideal S10000 .f32 :=
  Host.scatter scatter_S10000_S4096x1_S4096_n_0_0_1 (fun _ b => b) (broadcastInDim S10000 ![] bcast_S_S10000 (constant (F := Ideal) S_ .f32 0x00000000#32)) (broadcastInDim S4096x1 ![0] bcast_S4096_S4096x1_0 (select (cmpi .slt x5 (broadcastInDim S4096 ![] bcast_S_S4096 (constantI S_ 32 0#32))) (addi x5 (broadcastInDim S4096 ![] bcast_S_S4096 (constantI S_ 32 10000#32))) x5)) (broadcastInDim S4096 ![] bcast_S_S4096 (constant (F := Ideal) S_ .f32 0x3F800000#32))

end Cert.KernelIdeal.Host

end
-- ==== Proof.KernelHost.lean ====
/-
  What the grid finds in the arrays that the host prepared before it ran: each is the host's term of the
  arguments as launched (no host line before the grid writes an argument).
-/
import proofs.«118246_j72370198938200_1_alg».proof.Proof.Gen.KernelIdeal.Frame
import proofs.«118246_j72370198938200_1_alg».proof.Proof.HostTerms
import Idealize.ShloMosaic.Lib.StableHlo.Run
import Idealize.ShloMosaic.PureOps.Ideal

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The host-prepared arrays of the run from memory `m`, on device `c`. -/
abbrev itfPad (c : Dev nD) : FVec Ideal S10240x64 .f32 := itfPadOf (m ((c : Thread nD τ).loc main_arg1))
abbrev ibPad (c : Dev nD) : FVec Ideal S1x10240 .f32 := ibPadOf (m ((c : Thread nD τ).loc main_arg3))
abbrev maskPad (c : Dev nD) : FVec Ideal S20000x10240 .f32 := maskPadOf (m ((c : Thread nD τ).loc main_arg4)) (m ((c : Thread nD τ).loc main_arg5))
abbrev ufMask (c : Dev nD) : FVec Ideal S20000x64 .f32 := ufMaskOf (m ((c : Thread nD τ).loc main_arg4))
abbrev ubMask (c : Dev nD) : FVec Ideal S20000x1 .f32 := ubMaskOf (m ((c : Thread nD τ).loc main_arg4))
abbrev ifMask (c : Dev nD) : FVec Ideal S10000x64 .f32 := ifMaskOf (m ((c : Thread nD τ).loc main_arg5))
abbrev ibMask (c : Dev nD) : FVec Ideal S10000 .f32 := ibMaskOf (m ((c : Thread nD τ).loc main_arg5))

set_option maxHeartbeats 4000000 in
theorem V_itf (c : Dev nD) : V m c main_v52 = itfPad m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_ib (c : Dev nD) : V m c main_v54 = ibPad m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_mask (c : Dev nD) : V m c main_v15 = maskPad m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_ufMask (c : Dev nD) : V m c main_v24 = ufMask m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_ubMask (c : Dev nD) : V m c main_v42 = ubMask m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_ifMask (c : Dev nD) : V m c main_v33 = ifMask m c := by
  dsimp only [V, V0]
  simp only [hostOps0, hostOps0_1, hostOps0_2, hostOps0_3, hostOps0_4, List.flatten_cons, List.flatten_nil, List.append_nil, List.cons_append, List.nil_append]
  after_results_simp <;> rfl
set_option maxHeartbeats 4000000 in
theorem V_ibMask (c : Dev nD) : V m c main_v51 = ibMask m c := by
  dsimp only [V, V0]
  simp only [hostOps0, hostOps0_1, hostOps0_2, hostOps0_3, hostOps0_4, List.flatten_cons, List.flatten_nil, List.append_nil, List.cons_append, List.nil_append]
  after_results_simp <;> rfl

end Cert.KernelIdeal.Host

end
-- ==== Proof.KernelRun.lean ====
/-
  The idealized kernel's run, read: its five results as functions of the six arguments.

  After the grid, the host cuts the padded score matrix back to 10000 columns and multiplies the user factors,
  the user bias, the item factors and the item bias by their masks. The grid's output array is the score matrix
  of the arrays it found; the arrays it found are the arguments, the padded item arrays and the padded mask.
-/
import proofs.«118246_j72370198938200_1_alg».proof.Proof.Gen.KernelIdeal.Frame
import proofs.«118246_j72370198938200_1_alg».proof.Proof.KernelArray
import proofs.«118246_j72370198938200_1_alg».proof.Proof.KernelHost
import Idealize.ShloMosaic.Lib.StableHlo.Run

noncomputable section

namespace Cert.KernelIdeal.Run

open Cert.KernelIdeal Cert.KernelIdeal.Gen Cert.KernelIdeal.Block Cert.KernelIdeal.Host
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- What the lines after the grid start from, at the grid's output array: the score matrix. -/
theorem exit_scores (c : Dev nD) :
    Pipeline.withArrays (cfgs 0).spec c (V0 m c) (fun w => (dats m 0 c).arrAt w (cfgs 0).N) (Proc.devRef .tc main_v55)
      = scores (m ((c : Thread nD τ).loc main_arg0)) (itfPad m c) (m ((c : Thread nD τ).loc main_arg2)) (ibPad m c) (maskPad m c) := by
  refine ((Pipeline.withArrays_arr spec0 launch0.win.arr_inj c _ _ 5).trans (Arr.final m c)).trans ?_
  rw [V_main_arg0, V_itf, V_main_arg2, V_ib, V_mask]

/-- … at the user factors (an input the grid stages and never writes): as launched. -/
theorem exit_arg0 (c : Dev nD) :
    Pipeline.withArrays (cfgs 0).spec c (V0 m c) (fun w => (dats m 0 c).arrAt w (cfgs 0).N) (Proc.devRef .tc main_arg0)
      = (m ((c : Thread nD τ).loc main_arg0)) :=
  (Pipeline.withArrays_arr spec0 launch0.win.arr_inj c _ _ 0).trans
    (((dats m 0 c).arrAt_in 0 rfl _).trans ((A_eq m c 0).trans (V_main_arg0 m c)))

/-- … at the user bias: as launched. -/
theorem exit_arg2 (c : Dev nD) :
    Pipeline.withArrays (cfgs 0).spec c (V0 m c) (fun w => (dats m 0 c).arrAt w (cfgs 0).N) (Proc.devRef .tc main_arg2)
      = (m ((c : Thread nD τ).loc main_arg2)) :=
  (Pipeline.withArrays_arr spec0 launch0.win.arr_inj c _ _ 2).trans
    (((dats m 0 c).arrAt_in 2 rfl _).trans ((A_eq m c 2).trans (V_main_arg2 m c)))

/-- … at the item factors (the grid reads their padded copy, not them): as launched. -/
theorem exit_arg1 (c : Dev nD) :
    Pipeline.withArrays (cfgs 0).spec c (V0 m c) (fun w => (dats m 0 c).arrAt w (cfgs 0).N) (Proc.devRef .tc main_arg1)
      = (m ((c : Thread nD τ).loc main_arg1)) :=
  (Pipeline.withArrays_of_ne _ c (V0 m c) _ main_arg1 (by exact (by decide : ∀ w, Pipeline.arrRef spec0 w ≠ main_arg1))).trans (V_main_arg1 m c)

/-- … at the item bias: as launched. -/
theorem exit_arg3 (c : Dev nD) :
    Pipeline.withArrays (cfgs 0).spec c (V0 m c) (fun w => (dats m 0 c).arrAt w (cfgs 0).N) (Proc.devRef .tc main_arg3)
      = (m ((c : Thread nD τ).loc main_arg3)) :=
  (Pipeline.withArrays_of_ne _ c (V0 m c) _ main_arg3 (by exact (by decide : ∀ w, Pipeline.arrRef spec0 w ≠ main_arg3))).trans (V_main_arg3 m c)

/-- … at the four small masks: what the host computed before the grid. -/
theorem exit_ufMask (c : Dev nD) :
    Pipeline.withArrays (cfgs 0).spec c (V0 m c) (fun w => (dats m 0 c).arrAt w (cfgs 0).N) (Proc.devRef .tc main_v24) = ufMask m c :=
  (Pipeline.withArrays_of_ne _ c (V0 m c) _ main_v24 (by exact (by decide : ∀ w, Pipeline.arrRef spec0 w ≠ main_v24))).trans (V_ufMask m c)
theorem exit_ubMask (c : Dev nD) :
    Pipeline.withArrays (cfgs 0).spec c (V0 m c) (fun w => (dats m 0 c).arrAt w (cfgs 0).N) (Proc.devRef .tc main_v42) = ubMask m c :=
  (Pipeline.withArrays_of_ne _ c (V0 m c) _ main_v42 (by exact (by decide : ∀ w, Pipeline.arrRef spec0 w ≠ main_v42))).trans (V_ubMask m c)
theorem exit_ifMask (c : Dev nD) :
    Pipeline.withArrays (cfgs 0).spec c (V0 m c) (fun w => (dats m 0 c).arrAt w (cfgs 0).N) (Proc.devRef .tc main_v33) = ifMask m c :=
  (Pipeline.withArrays_of_ne _ c (V0 m c) _ main_v33 (by exact (by decide : ∀ w, Pipeline.arrRef spec0 w ≠ main_v33))).trans (V_ifMask m c)
theorem exit_ibMask (c : Dev nD) :
    Pipeline.withArrays (cfgs 0).spec c (V0 m c) (fun w => (dats m 0 c).arrAt w (cfgs 0).N) (Proc.devRef .tc main_v51) = ibMask m c :=
  (Pipeline.withArrays_of_ne _ c (V0 m c) _ main_v51 (by exact (by decide : ∀ w, Pipeline.arrRef spec0 w ≠ main_v51))).trans (V_ibMask m c)

/-- The first result: the score matrix cut back to its first 10000 columns. -/
theorem tail_scores (c : Dev nD) :
    Pipeline.afterTail₀ cfgs (dats m) 0 (V0 m) [hostOps1] c main_v56
      = extractStridedSlice S20000x10000 ![0, 0]
          (scores (m ((c : Thread nD τ).loc main_arg0)) (itfPad m c) (m ((c : Thread nD τ).loc main_arg2)) (ibPad m c) (maskPad m c))
          slices_S20000x10240_S20000x10000_0_0 := by
  unfold Pipeline.afterTail₀
  show StableHlo.after hostOps1 _ (Proc.devRef .tc main_v56) = _
  after_results
  rw [exit_scores]

/-- The second result: the user factors times their mask. -/
theorem tail_uf (c : Dev nD) :
    Pipeline.afterTail₀ cfgs (dats m) 0 (V0 m) [hostOps1] c main_v57 = mulf (m ((c : Thread nD τ).loc main_arg0)) (ufMask m c) := by
  unfold Pipeline.afterTail₀
  show StableHlo.after hostOps1 _ (Proc.devRef .tc main_v57) = _
  after_results
  rw [exit_arg0, exit_ufMask]

/-- The third result: the user bias times its mask. -/
theorem tail_ub (c : Dev nD) :
    Pipeline.afterTail₀ cfgs (dats m) 0 (V0 m) [hostOps1] c main_v58 = mulf (m ((c : Thread nD τ).loc main_arg2)) (ubMask m c) := by
  unfold Pipeline.afterTail₀
  show StableHlo.after hostOps1 _ (Proc.devRef .tc main_v58) = _
  after_results
  rw [exit_arg2, exit_ubMask]

/-- The fourth result: the item factors times their mask. -/
theorem tail_if (c : Dev nD) :
    Pipeline.afterTail₀ cfgs (dats m) 0 (V0 m) [hostOps1] c main_v59 = mulf (m ((c : Thread nD τ).loc main_arg1)) (ifMask m c) := by
  unfold Pipeline.afterTail₀
  show StableHlo.after hostOps1 _ (Proc.devRef .tc main_v59) = _
  after_results
  rw [exit_arg1, exit_ifMask]

/-- The fifth result: the item bias times its mask. -/
theorem tail_ib (c : Dev nD) :
    Pipeline.afterTail₀ cfgs (dats m) 0 (V0 m) [hostOps1] c main_v60 = mulf (m ((c : Thread nD τ).loc main_arg3)) (ibMask m c) := by
  unfold Pipeline.afterTail₀
  show StableHlo.after hostOps1 _ (Proc.devRef .tc main_v60) = _
  after_results
  rw [exit_arg3, exit_ibMask]

/-- Every weakly fair execution of the idealized kernel terminates with the five results at these functions of
    the arguments and the arguments unchanged. -/
theorem run : θ_run defs (onTc (τ := τ) (main (F := Ideal))) ⟨m, fun _ => 0, ρ⟩ fun r => ∀ c : Dev nD,
      r.2.mem ((c.tc : Thread nD τ).loc main_v56) = extractStridedSlice S20000x10000 ![0, 0]
          (scores (m ((c : Thread nD τ).loc main_arg0)) (itfPad m c) (m ((c : Thread nD τ).loc main_arg2)) (ibPad m c) (maskPad m c))
          slices_S20000x10240_S20000x10000_0_0
      ∧ r.2.mem ((c.tc : Thread nD τ).loc main_v57) = mulf (m ((c : Thread nD τ).loc main_arg0)) (ufMask m c)
      ∧ r.2.mem ((c.tc : Thread nD τ).loc main_v58) = mulf (m ((c : Thread nD τ).loc main_arg2)) (ubMask m c)
      ∧ r.2.mem ((c.tc : Thread nD τ).loc main_v59) = mulf (m ((c : Thread nD τ).loc main_arg1)) (ifMask m c)
      ∧ r.2.mem ((c.tc : Thread nD τ).loc main_v60) = mulf (m ((c : Thread nD τ).loc main_arg3)) (ibMask m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v56 (Pipeline.mem_restRefs_of main_v56 (by decide) (by decide))).trans (tail_scores m c),
     ((h c).2 main_v57 (Pipeline.mem_restRefs_of main_v57 (by decide) (by decide))).trans (tail_uf m c),
     ((h c).2 main_v58 (Pipeline.mem_restRefs_of main_v58 (by decide) (by decide))).trans (tail_ub m c),
     ((h c).2 main_v59 (Pipeline.mem_restRefs_of main_v59 (by decide) (by decide))).trans (tail_if m c),
     ((h c).2 main_v60 (Pipeline.mem_restRefs_of main_v60 (by decide) (by decide))).trans (tail_ib m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Run

end
-- ==== Proof.MaskScatter.lean ====
/-
  Two scatters of the same updates at the same signed indices, one into an operand with 240 extra columns.

  A scatter is a left fold over the updates: each update lands at its (row, column) index when that is inside the
  operand and is dropped otherwise, a later update overwriting an earlier one. The padded and the unpadded mask are
  built by such folds over the same 4096 (user, item) pairs; the only difference is the constant added to a
  NEGATIVE item index (10240 against 10000), and where no item index is negative that constant is never added.
  An update then has the same signed landing index in both folds; it lands at an element of the first 10000
  columns of the padded operand exactly when it lands at the same element of the unpadded one. So the two folds,
  started from operands that agree on those columns, agree on those columns after every update.
-/
import Idealize.ShloMosaic.PureOps
import Idealize.ShloMosaic.Lib.Pipeline.Value
import Idealize.ShloMosaic.Lib.ValueIdx

noncomputable section

namespace Cert.Bridge

open Idealize.ShloMosaic

abbrev SUxI : Shape := ⟨2, ![20000, 10000]⟩
abbrev SUxIP : Shape := ⟨2, ![20000, 10240]⟩
abbrev SB : Shape := ⟨1, ![4096]⟩
abbrev SBx1 : Shape := ⟨2, ![4096, 1]⟩
abbrev SBx2 : Shape := ⟨2, ![4096, 2]⟩
abbrev S0 : Shape := ⟨0, ![]⟩

/-- The scatter of one scalar per (row, column) pair into the padded mask. -/
def dPad : ScatterDims SUxIP SBx2 SB where
  updateWindowDims := []
  insertedWindowDims := [0, 1]
  scatterDimsToOperandDims := [0, 1]
  indexVectorDim := 1

/-- The same scatter into the unpadded mask. -/
def dRef : ScatterDims SUxI SBx2 SB where
  updateWindowDims := []
  insertedWindowDims := [0, 1]
  scatterDimsToOperandDims := [0, 1]
  indexVectorDim := 1

/-- A column of indices with the negative ones moved up by `n` (jnp's index normalisation), as a [4096, 1] array. -/
abbrev normCol (n : BitVec 32) (x : IVec SB 32) (hb : S0.BroadcastsInDim SB (![] : Fin 0 → Fin SB.rank))
    (hb1 : SB.BroadcastsInDim SBx1 (![0] : Fin 1 → Fin SBx1.rank)) : IVec SBx1 32 :=
  broadcastInDim SBx1 ![0] hb1
    (select (cmpi .slt x (broadcastInDim SB ![] hb (constantI S0 32 0#32))) (addi x (broadcastInDim SB ![] hb (constantI S0 32 n))) x)

/-- Two left folds over one list keep a relation between their accumulators that every step keeps. -/
theorem foldl_rel {ι A B : Type} (R : A → B → Prop) (fA : A → ι → A) (fB : B → ι → B) (L : List ι)
    (h : ∀ n ∈ L, ∀ a b, R a b → R (fA a n) (fB b n)) : ∀ a b, R a b → R (L.foldl fA a) (L.foldl fB b) := by
  induction L with
  | nil => intro a b hab; exact hab
  | cons n L ih =>
    intro a b hab
    simp only [List.foldl_cons]
    exact ih (fun m hm => h m (List.mem_cons_of_mem _ hm)) _ _ (h n List.mem_cons_self a b hab)

/-- An update lands at the operand index `q` exactly when, on every axis, the signed start plus the window
    coordinate is `q`'s coordinate: such a sum is then inside the operand, and the landing index is unique. -/
theorem resultIdx?_eq_some_iff {s si u : Shape} {w : Nat} (d : ScatterDims s si u) (j : u.Idx) (idx : IVec si w) (q : s.Idx) :
    d.resultIdx? j idx = some q ↔ ∀ a, d.start j idx a + (d.window j a : Int) = ((q a).val : Int) := by
  unfold ScatterDims.resultIdx?
  constructor
  · intro h a
    split at h
    · next hh =>
      have h1 := congrArg Fin.val (congrFun (Option.some.inj h) a)
      simp only at h1
      have := hh a
      omega
    · cases h
  · intro h
    have hh : ∀ a, 0 ≤ d.start j idx a + (d.window j a : Int) ∧ d.start j idx a + (d.window j a : Int) < s.size a := by
      intro a; have := h a; have := (q a).isLt; omega
    rw [dif_pos hh]
    congr 1
    funext a
    apply Fin.ext
    have := h a
    simp only
    omega

/-- The padded and the unpadded scatter name the same axes, so an update's signed start and window coordinate
    are the same in both; an update therefore lands at an index of the padded operand exactly when it lands at
    the index of the unpadded one with the same coordinates. -/
theorem resultIdx?_pad_iff (j : SB.Idx) (idx : IVec SBx2 32) (i : SUxI.Idx) (k : SUxIP.Idx)
    (hk : ∀ a, (k a).val = (i a).val) :
    dPad.resultIdx? j idx = some k ↔ dRef.resultIdx? j idx = some i := by
  rw [resultIdx?_eq_some_iff, resultIdx?_eq_some_iff]
  have hs : ∀ a : Fin 2, dPad.start j idx a = dRef.start j idx a := fun a => rfl
  have hw : ∀ a : Fin 2, dPad.window j a = dRef.window j a := fun a => rfl
  constructor
  · intro h a
    have h1 := h a; have h2 := hs a; have h3 := hw a; have h4 := hk a
    omega
  · intro h a
    have h1 := h a; have h2 := hs a; have h3 := hw a; have h4 := hk a
    omega

/-- Where every index is non-negative as a signed integer the normalisation never shifts: the column is the
    broadcast of the indices themselves, whatever constant the shift would have added. -/
theorem normCol_eq_of_nonneg (n m : BitVec 32) (x : IVec SB 32) (hx : ∀ j : SB.Idx, 0 ≤ (x j).toInt)
    (hb : S0.BroadcastsInDim SB (![] : Fin 0 → Fin SB.rank))
    (hb1 : SB.BroadcastsInDim SBx1 (![0] : Fin 1 → Fin SBx1.rank)) :
    normCol n x hb hb1 = normCol m x hb hb1 := by
  have key : ∀ c : BitVec 32,
      select (cmpi .slt x (broadcastInDim SB ![] hb (constantI S0 32 0#32))) (addi x (broadcastInDim SB ![] hb (constantI S0 32 c))) x = x := by
    intro c
    funext j
    show Scalar.select (cmpi .slt x (broadcastInDim SB ![] hb (constantI S0 32 0#32)) j) _ (x j) = x j
    have h0 : cmpi .slt x (broadcastInDim SB ![] hb (constantI S0 32 0#32)) j = 0#1 := by
      show IntOp.cmpi .slt (x j) (0#32) = 0#1
      have := hx j
      simp only [IntOp.cmpi, BitVec.slt, BitVec.toInt_zero]
      have hlt : decide ((x j).toInt < 0) = false := by simp; omega
      rw [hlt]; rfl
    rw [h0]
    rfl
  unfold normCol
  rw [key n, key m]

theorem mask_pad_eq_mask {α : Type} (x4 x5 : IVec SB 32) (h5 : ∀ n : SB.Idx, 0 ≤ (x5 n).toInt)
    (zK : SUxIP.Idx → α) (zR : SUxI.Idx → α) (upd : SB.Idx → α)
    (hb : S0.BroadcastsInDim SB (![] : Fin 0 → Fin SB.rank))
    (hb1 : SB.BroadcastsInDim SBx1 (![0] : Fin 1 → Fin SBx1.rank))
    (hc : Shape.Concatenates [SBx1, SBx1] SBx2 1)
    (hz : ∀ (i : SUxI.Idx) (k : SUxIP.Idx), (∀ a, (k a).val = (i a).val) → zK k = zR i)
    (i : SUxI.Idx) (k : SUxIP.Idx) (hk : ∀ a, (k a).val = (i a).val) :
    Host.scatter dPad (fun _ b => b) zK
        (concatenate SBx2 1 [⟨SBx1, normCol 20000#32 x4 hb hb1⟩, ⟨SBx1, normCol 10240#32 x5 hb hb1⟩] hc) upd k
      = Host.scatter dRef (fun _ b => b) zR
        (concatenate SBx2 1 [⟨SBx1, normCol 20000#32 x4 hb hb1⟩, ⟨SBx1, normCol 10000#32 x5 hb hb1⟩] hc) upd i := by
  rw [normCol_eq_of_nonneg 10240#32 10000#32 x5 h5 hb hb1]
  generalize concatenate SBx2 1 [⟨SBx1, normCol 20000#32 x4 hb hb1⟩, ⟨SBx1, normCol 10000#32 x5 hb hb1⟩] hc = idx
  unfold Host.scatter
  refine foldl_rel (fun (rK : SUxIP.Idx → α) (rR : SUxI.Idx → α) =>
    ∀ (i : SUxI.Idx) (k : SUxIP.Idx), (∀ a, (k a).val = (i a).val) → rK k = rR i) _ _ _ ?_ zK zR hz i k hk
  intro n _ rK rR hr i k hk
  have H := resultIdx?_pad_iff (SB.rowMajor.symm n) idx i k hk
  have hrk := hr i k hk
  generalize dPad.resultIdx? (SB.rowMajor.symm n) idx = oK at H ⊢
  generalize dRef.resultIdx? (SB.rowMajor.symm n) idx = oR at H ⊢
  cases oK with
  | none =>
    cases oR with
    | none => exact hrk
    | some q' =>
      have hne : i ≠ q' := fun e => by
        have := H.2 (by rw [e]); cases this
      show rK k = if i = q' then _ else rR i
      rw [if_neg hne]; exact hrk
  | some q =>
    cases oR with
    | none =>
      have hne : k ≠ q := fun e => by
        have := H.1 (by rw [e]); cases this
      show (if k = q then _ else rK k) = rR i
      rw [if_neg hne]; exact hrk
    | some q' =>
      show (if k = q then _ else rK k) = if i = q' then _ else rR i
      by_cases hkq : k = q
      · have hiq : i = q' := by
          have := H.1 (by rw [hkq]); exact (Option.some.inj this).symm
        rw [if_pos hkq, if_pos hiq]
      · have hiq : i ≠ q' := fun e => hkq (by
          have := H.2 (by rw [e]); exact (Option.some.inj this).symm)
        rw [if_neg hkq, if_neg hiq]; exact hrk

end Cert.Bridge

end
-- ==== Proof.ScoreBridge.lean ====
/-
  The first result, index by index: the kernel's score matrix cut back to 10000 columns is the reference's.

  At row r and column c < 10000 both are ((∑ k, U r k · I c k) + bu r + bi c) · mask r c: the padded item
  factors and the padded item bias read below row 10000 are the item factors and the item bias; the matrix
  product into a zero accumulator and the host's contraction are the same sum over the 64 factors, in the same
  order; the two biases are added in the same order; and the two masks agree on the first 10000 columns where
  every item index is non-negative (the padded mask moves a negative index up by 10240, the reference's by 10000:
  with none negative the two scatters write at the same places).
-/
import proofs.«118246_j72370198938200_1_alg».proof.Proof.KernelBlock
import proofs.«118246_j72370198938200_1_alg».proof.Proof.HostTerms
import proofs.«118246_j72370198938200_1_alg».proof.Proof.MaskScatter
import proofs.«118246_j72370198938200_1_alg».proof.Proof.Gen.ReferenceIdeal.Read
import Idealize.ShloMosaic.Lib.KernelVsHost
import Idealize.ShloMosaic.Lib.Pipeline.Value

noncomputable section

namespace Cert.Bridge

open Idealize.ShloMosaic Idealize.ShloMosaic.ValueIdx
open Cert.KernelIdeal.Block Cert.KernelIdeal.Host
open Cert.ReferenceIdeal Cert.ReferenceIdeal.Facts₀ Cert.ReferenceIdeal.Facts Cert.ReferenceIdeal.Read

/-- The reference's interaction mask: ones scattered into a 20000 × 10000 array of zeros. -/
abbrev maskRefOf (x4 x5 : IVec S4096 32) : FVec Ideal S20000x10000 .f32 :=
  Host.scatter scatter_S20000x10000_S4096x2_S4096_n_01_01_1 (fun _ b => b) (broadcastInDim S20000x10000 ![] bcast_S_S20000x10000 (constant (F := Ideal) S_ .f32 0x00000000#32)) (concatenate S4096x2 1 [⟨S4096x1, (broadcastInDim S4096x1 ![0] bcast_S4096_S4096x1_0 (select (cmpi .slt x4 (broadcastInDim S4096 ![] bcast_S_S4096 (constantI S_ 32 0#32))) (addi x4 (broadcastInDim S4096 ![] bcast_S_S4096 (constantI S_ 32 20000#32))) x4))⟩, ⟨S4096x1, (broadcastInDim S4096x1 ![0] bcast_S4096_S4096x1_0 (select (cmpi .slt x5 (broadcastInDim S4096 ![] bcast_S_S4096 (constantI S_ 32 0#32))) (addi x5 (broadcastInDim S4096 ![] bcast_S_S4096 (constantI S_ 32 10000#32))) x5))⟩] concatenates_S4096x1_S4096x1_S4096x2_d1) (broadcastInDim S4096 ![] bcast_S_S4096 (constant (F := Ideal) S_ .f32 0x3F800000#32))

theorem maskRef_eq (x4 x5 : IVec S4096 32) : val_main_v15 (F := Ideal) x4 x5 = maskRefOf x4 x5 := rfl

/-- A padded item row below row 10000 is the item row. -/
theorem itfPad_apply (x1 : FVec Ideal S10000x64 .f32) (cc : Fin 10240) (c : Fin 10000) (hc : cc.val = c.val) (k : Fin 64) :
    itfPadOf x1 (ix2 cc k) = x1 (ix2 c k) :=
  pad_apply_of_inside _ _ _ x1 _ _ _ (ix2 cc k) (ix2 c k) (fun a => match a with
    | ⟨0, _⟩ => by show cc.val = 0 + c.val * (0 + 1); omega
    | ⟨1, _⟩ => by show k.val = 0 + k.val * (0 + 1); omega)

/-- A padded item bias entry below 10000, read from the 1 × 10240 row, is the item bias entry. -/
theorem ibPad_apply (x3 : FVec Ideal S10000 .f32) (cc : Fin 10240) (c : Fin 10000) (hc : cc.val = c.val) :
    ibPadOf x3 (ix2 (0 : Fin 1) cc) = x3 (ix1 c) := by
  refine (shapeCast_addUnit_apply ![10240] _ _ (ix2 (0 : Fin 1) cc)).trans ?_
  exact pad_apply_of_inside _ _ _ x3 _ _ _ _ (ix1 c) (fun a => match a with
    | ⟨0, _⟩ => by show cc.val = 0 + c.val * (0 + 1); omega)

/-- The two masks agree on the first 10000 columns when no item index is negative. -/
theorem mask_apply (x4 x5 : IVec S4096 32) (h5 : ∀ n : S4096.Idx, 0 ≤ (x5 n).toInt) (r : Fin 20000) (cc : Fin 10240)
    (c : Fin 10000) (hc : cc.val = c.val) :
    maskPadOf x4 x5 (ix2 r cc) = maskRefOf x4 x5 (ix2 r c) :=
  mask_pad_eq_mask x4 x5 h5 _ _ _ _ _ _ (fun _ _ _ => rfl) (ix2 r c) (ix2 r cc) (fun a => match a with
    | ⟨0, _⟩ => rfl
    | ⟨1, _⟩ => hc)

/-- THE FIRST RESULT: the kernel's padded score matrix, cut back to 10000 columns, is the reference's. -/
theorem scores_eq (x0 : FVec Ideal S20000x64 .f32) (x1 : FVec Ideal S10000x64 .f32) (x2 : FVec Ideal S20000x1 .f32)
    (x3 : FVec Ideal S10000 .f32) (x4 x5 : IVec S4096 32) (h5 : ∀ n : S4096.Idx, 0 ≤ (x5 n).toInt) :
    extractStridedSlice S20000x10000 ![0, 0] (scores x0 (itfPadOf x1) x2 (ibPadOf x3) (maskPadOf x4 x5))
        Cert.KernelIdeal.Facts₀.slices_S20000x10240_S20000x10000_0_0
      = val_main_v58 (F := Ideal) x0 x1 x2 x3 x4 x5 := by
  funext i
  obtain ⟨r, c, rfl⟩ : ∃ (r : Fin 20000) (c : Fin 10000), i = ix2 r c := ⟨i 0, i 1, eq_ix2 i⟩
  have hc : c.val < 10000 := c.isLt
  rw [extractStridedSlice_apply ![0, 0] _ _ (ix2 r c) (ix2 r (⟨c.val, by omega⟩ : Fin 10240)) (fun a => match a with
    | ⟨0, _⟩ => by show r.val = 0 + r.val; omega
    | ⟨1, _⟩ => by show c.val = 0 + c.val; omega)]
  rw [val_main_v58_apply, val_main_v57_apply, val_main_v54_apply, val_main_v52_apply, val_main_v53_apply,
    val_main_v56_apply, val_main_v55_apply, maskRef_eq]
  have e0 : ∀ k : Fin 64, x0 (lidx_main_v52 (ix2 r c) k) = x0 (ix2 r k) := fun k =>
    congrArg x0 (funext fun a => match a with | ⟨0, _⟩ => rfl | ⟨1, _⟩ => rfl)
  have e1 : ∀ k : Fin 64, x1 (ridx_main_v52 (ix2 r c) k) = x1 (ix2 c k) := fun k =>
    congrArg x1 (funext fun a => match a with | ⟨0, _⟩ => rfl | ⟨1, _⟩ => rfl)
  have e2 : x2 (idx_main_v53 (ix2 r c)) = x2 (ix2 r (0 : Fin 1)) :=
    congrArg x2 (funext fun a => match a with | ⟨0, _⟩ => rfl | ⟨1, _⟩ => rfl)
  have e3 : x3 (idx_main_v55 (idx_main_v56 (ix2 r c))) = x3 (ix1 c) :=
    congrArg x3 (funext fun a => match a with | ⟨0, _⟩ => rfl)
  simp only [e0, e1]
  rw [e2, e3, ← mask_apply x4 x5 h5 r ⟨c.val, by omega⟩ c rfl, ← ibPad_apply x3 ⟨c.val, by omega⟩ c rfl]
  show scoreAt x0 (itfPadOf x1) x2 (ibPadOf x3) (maskPadOf x4 x5) r ⟨c.val, _⟩ = _
  unfold scoreAt
  simp only [itfPad_apply x1 ⟨c.val, by omega⟩ c rfl]
  rfl

end Cert.Bridge

end
-- ==== Proof.Precond.lean ====
/-
  The precondition, read back: besides the finiteness of the four float arguments it says that every item index
  is non-negative as a signed 32-bit integer. The predicate ends in a conjunction whose last conjunct is the
  conjunction, over the 4096 indices, of the comparisons `items_idx ≥ 0`; a conjunction of bits that is one has
  every bit one.
-/
import proofs.«118246_j72370198938200_1_alg».proof.Pre_finite_inputs
import Idealize.ShloMosaic.Lib.ReduceAll
import Idealize.ShloMosaic.Lib.ValueIdx

noncomputable section

namespace Cert.Pre_finite_inputs.Decode

open Cert.Pre_finite_inputs Idealize.ShloMosaic

variable [Facts]

instance : Subsingleton S_.Idx := ⟨fun _ _ => funext fun d => d.elim0⟩

/-- Where the precondition holds, every item index is non-negative. -/
theorem items_nonneg {F : FTy → Type} [FloatOps F] (a0 : FVec F S20000x64 .f32) (a1 : FVec F S10000x64 .f32)
    (a2 : FVec F S20000x1 .f32) (a3 : FVec F S10000 .f32) (a4 a5 : IVec S4096 32)
    (h : fn (F := F) a0 a1 a2 a3 a4 a5 = fun _ => 1#1) (n : S4096.Idx) : 0 ≤ (a5 n).toInt := by
  have h0 := congrFun h ValueIdx.ix0
  dsimp only [fn, fn_part1] at h0
  have h1 : IntOp.andi _ _ = 1#1 := h0
  have h2 := (IntOp.andi_eq_one.1 h1).2
  have h3 := Host.reduce_andi_all _ _ _ _ _ h2 n
  have h4 : IntOp.cmpi .sge (a5 n) (0#32) = 1#1 := h3
  have h5 := IntOp.cmpi_sge.1 h4
  simpa using h5

end Cert.Pre_finite_inputs.Decode

end
-- ==== Proof.lean ====
/-
  The certificate of the masked matrix-factorisation scores.

  The kernel computes, on a 20 × 10 grid of 1000 × 1024 tiles, S = (U · Iᵀ + bu + bi) ⊙ mask over a score matrix
  padded from 10000 to 10240 columns (the item factors, the item bias and the mask are padded to that width by
  the host), cuts the result back to 10000 columns, and returns it with the four arguments U, bu, I, bi each
  multiplied by the 0/1 mask of the rows that some interaction names. The reference computes the same five
  results directly at width 10000.

  Over the extended reals the two programs agree wherever every item index is non-negative:
  * the padded rows and entries are never read below column 10000, so the padded item arrays are the item
    arrays there;
  * the tile product into a zero accumulator and the host's contraction are the same sum over the 64 factors,
    and the two biases are added in the same order, so no law beyond reading each side at an index is needed
    (in particular finiteness of the floats is not used);
  * the two interaction masks are scatters of ones at the (user, item) pairs, a negative index being first moved
    up by the extent of its axis: 20000 for users in both programs, but 10240 in the padded mask against 10000 in
    the reference's for items. With no negative item index the two scatters write at the same places of the
    first 10000 columns (an item index in 10000 … 10239 lands in the padding that is cut away in one program and
    is dropped as out of range in the other);
  * the other four results are the same host terms in both programs.
  The three frames are the generated ones (the reference's is its run with the results dropped); the kernel's
  idealisation rewrote nothing.
-/
import proofs.«118246_j72370198938200_1_alg».proof.Defs
import proofs.«118246_j72370198938200_1_alg».proof.Proof.Gen.Kernel
import proofs.«118246_j72370198938200_1_alg».proof.Proof.Gen.Kernel.Skeleton
import proofs.«118246_j72370198938200_1_alg».proof.Proof.Gen.Kernel.Launch
import proofs.«118246_j72370198938200_1_alg».proof.Proof.Gen.Kernel.Points
import proofs.«118246_j72370198938200_1_alg».proof.Proof.Gen.Kernel.Frame
import proofs.«118246_j72370198938200_1_alg».proof.Proof.Gen.KernelIdeal
import proofs.«118246_j72370198938200_1_alg».proof.Proof.Gen.KernelIdeal.Skeleton
import proofs.«118246_j72370198938200_1_alg».proof.Proof.Gen.KernelIdeal.Launch
import proofs.«118246_j72370198938200_1_alg».proof.Proof.Gen.KernelIdeal.Points
import proofs.«118246_j72370198938200_1_alg».proof.Proof.Gen.KernelIdeal.Frame
import proofs.«118246_j72370198938200_1_alg».proof.Proof.Gen.ReferenceIdeal
import proofs.«118246_j72370198938200_1_alg».proof.Proof.Gen.ReferenceIdeal.Run
import proofs.«118246_j72370198938200_1_alg».proof.Proof.Gen.ReferenceIdeal.Read
import proofs.«118246_j72370198938200_1_alg».proof.Proof.Gen.Pre_finite_inputs
import proofs.«118246_j72370198938200_1_alg».proof.Proof.KernelRun
import proofs.«118246_j72370198938200_1_alg».proof.Proof.ScoreBridge
import proofs.«118246_j72370198938200_1_alg».proof.Proof.Precond
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The two idealised programs end with equal results, from memories that agree on the arguments, where the
    precondition holds: the score matrices by the index-by-index comparison, the four masked arguments because
    the two programs compute them by the same host operations. -/
theorem algebraic : Cert.algebraic_KernelIdeal_ReferenceIdeal := by
  intro m ρ m' ρ' hpre hagree
  have h5 : ∀ (c : Dev Cert.KernelIdeal.nD) (n : Cert.KernelIdeal.S4096.Idx),
      0 ≤ ((m ((c.tc : Thread Cert.KernelIdeal.nD Cert.KernelIdeal.τ).loc Cert.KernelIdeal.main_arg5)) n).toInt :=
    fun c n => Cert.Pre_finite_inputs.Decode.items_nonneg _ _ _ _ _ _ (hpre c) n
  refine ⟨_, _, _, _, _, Cert.KernelIdeal.Run.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2.1.trans ?_, (h c).2.2.2.1.trans ?_, (h c).2.2.2.2.1.trans ?_,
    (h c).2.2.2.2.2⟩
  · rw [a0, a1, a2, a3, a4, a5]
    exact (Cert.ReferenceIdeal.Read.val_main_v58_eq _ _ _ _ _ _).trans (Cert.Bridge.scores_eq _ _ _ _ _ _ (h5 c)).symm
  · rw [a0, a4]; rfl
  · rw [a2, a4]; rfl
  · rw [a1, a5]; rfl
  · rw [a3, a5]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
